-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S2000x128 : Shape := ⟨2, ![2000, 128]⟩
abbrev S1x128 : Shape := ⟨2, ![1, 128]⟩

abbrev nBuf : Space → Nat
  | .hbm => 24
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S50000x128, .f32⟩
  | .hbm, ⟨21, _⟩ => ⟨S640000x1, .i32⟩
  | .hbm, ⟨22, _⟩ => ⟨S50000x128, .f32⟩
  | .hbm, ⟨23, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S50000x128, .f32⟩
  | .hbm, ⟨21, _⟩ => ⟨S640000x1, .i32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Mlp.lean ====
/-
  The two-layer network on the extended reals, entry by entry.

  A dense layer sends a matrix h : [n, K] to h · W + b : [n, N]: entry (r, j) is ∑ k < K, h (r, k) · W (k, j) plus
  b j. The rectifier takes the larger of an entry and the number the zero word of f32 denotes. The network is a dense
  layer, the rectifier, and a second dense layer. Each row of the result depends on the same row of h and on nothing
  else of h: that is what lets a block of rows be computed from the block alone.
-/
import Idealize.ShloMosaic.Lib.ValueIdx
import Idealize.ShloMosaic.PureOps.Ideal

noncomputable section

open scoped BigOperators

namespace Idealize.ShloMosaic.Mlp

open Idealize.ShloMosaic Idealize.ShloMosaic.ValueIdx

/-- A matrix of extended reals. -/
abbrev Mat (n k : Nat) : Type := (⟨2, ![n, k]⟩ : Shape).Idx → EReal
/-- A vector of extended reals. -/
abbrev Row (k : Nat) : Type := (⟨1, ![k]⟩ : Shape).Idx → EReal

/-- A dense layer: entry (r, j) of h · W + b. -/
def dense {n K N : Nat} (h : Mat n K) (W : Mat K N) (b : Row N) : Mat n N :=
  fun i => (∑ k : Fin K, h (ix2 (i 0) k) * W (ix2 k (i 1))) + b (ix1 (i 1))

/-- The rectifier: the larger of an entry and zero, zero being what the f32 zero word denotes. -/
def relu {n N : Nat} (z : Mat n N) : Mat n N :=
  fun i => max (z i) (Ideal.ofBits .f32 0x00000000#32)

/-- The network: dense, rectifier, dense. -/
def mlp {n K H N : Nat} (h : Mat n K) (W1 : Mat K H) (b1 : Row H) (W2 : Mat H N) (b2 : Row N) : Mat n N :=
  dense (relu (dense h W1 b1)) W2 b2

/-- A dense layer's entry (r, j) reads row r of its input only: two inputs that agree on the rows asked for, in
    matrices of possibly different heights, give the same entry in the same column. -/
theorem dense_congr {n n' K N : Nat} {h : Mat n K} {h' : Mat n' K} (W : Mat K N) (b : Row N)
    {i : (⟨2, ![n, N]⟩ : Shape).Idx} {i' : (⟨2, ![n', N]⟩ : Shape).Idx}
    (hrow : ∀ k : Fin K, h (ix2 (i 0) k) = h' (ix2 (i' 0) k)) (hcol : i 1 = i' 1) :
    dense h W b i = dense h' W b i' := by
  unfold dense
  rw [hcol]
  exact congrArg (· + b (ix1 (i' 1))) (Finset.sum_congr rfl fun k _ => by rw [hrow k])

/-- So does the network's: row r of the result is a function of row r of the input. -/
theorem mlp_congr {n n' K H N : Nat} {h : Mat n K} {h' : Mat n' K} (W1 : Mat K H) (b1 : Row H) (W2 : Mat H N) (b2 : Row N)
    {i : (⟨2, ![n, N]⟩ : Shape).Idx} {i' : (⟨2, ![n', N]⟩ : Shape).Idx}
    (hrow : ∀ k : Fin K, h (ix2 (i 0) k) = h' (ix2 (i' 0) k)) (hcol : i 1 = i' 1) :
    mlp h W1 b1 W2 b2 i = mlp h' W1 b1 W2 b2 i' := by
  unfold mlp
  refine dense_congr W2 b2 (fun k => ?_) hcol
  unfold relu
  exact congrArg (max · (Ideal.ofBits .f32 0x00000000#32)) (dense_congr W1 b1 (fun l => hrow l) rfl)

/-- The same with the weights and biases given twice, equal: what a block of rows computed with its own copies of the
    weights is compared through. -/
theorem mlp_eq_of {n n' K H N : Nat} {h : Mat n K} {h' : Mat n' K} {W1 W1' : Mat K H} {b1 b1' : Row H}
    {W2 W2' : Mat H N} {b2 b2' : Row N} {i : (⟨2, ![n, N]⟩ : Shape).Idx} {i' : (⟨2, ![n', N]⟩ : Shape).Idx}
    (hrow : ∀ k : Fin K, h (ix2 (i 0) k) = h' (ix2 (i' 0) k)) (hcol : i 1 = i' 1)
    (hW1 : W1 = W1') (hb1 : b1 = b1') (hW2 : W2 = W2') (hb2 : b2 = b2') :
    mlp h W1 b1 W2 b2 i = mlp h' W1' b1' W2' b2' i' := by
  subst hW1 hb1 hW2 hb2
  exact mlp_congr W1 b1 W2 b2 hrow hcol

end Idealize.ShloMosaic.Mlp

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«150337_j4363686772848_1_alg».proof.Proof.LibContract
import proofs.«150337_j4363686772848_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.KernelPayload.lean ====
/-
  What the kernel body stores, entry by entry.

  At a grid point the body loads a block of 2000 rows of the features and the same rows of the neighbour sums, adds
  them, and sends the sum through the two-layer network: a product with the first weight matrix into a zero
  accumulator, the first bias added along every row, the rectifier, a product with the second weight matrix, the
  second bias. The narrowings to bf16 before each product change nothing on the extended reals. So entry (p, q) of
  the stored block is the network's entry (p, q) at the block of sums, with the whole weight matrices and biases.
-/
import proofs.«150337_j4363686772848_1_alg».proof.Proof.Gen.KernelIdeal.Skeleton
import proofs.«150337_j4363686772848_1_alg».proof.Proof.Mlp
import proofs.«150337_j4363686772848_1_alg».proof.Proof.LibDenseVec
import proofs.«150337_j4363686772848_1_alg».proof.Proof.LibVecRows
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.ShloMosaic.Mlp

/-- The block product contracts the left operand's columns with the right operand's rows, and nothing else. -/
theorem plain_dot : DenseVec.Plain dot_S2000x128_S128x128_S2000x128_1_0_0_1_n_n where
  rank := rfl
  size := fun _ => rfl
  lhs := rfl
  rhs := rfl
  row := fun j q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  col := fun j q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- One dense layer as the body spells it — both operands narrowed, the product taken into a zero accumulator, the
    bias cast to one row and copied down the block — is the dense layer, entry by entry. -/
theorem layer_apply (h : FVec Ideal S2000x128 .f32) (W : FVec Ideal S128x128 .f32) (b : FVec Ideal S128 .f32)
    (p : Fin 2000) (q : Fin 128) :
    addf (matmul dot_S2000x128_S128x128_S2000x128_1_0_0_1_n_n none (truncf .bf16 h bitsLt_bf16_f32)
        (truncf .bf16 W bitsLt_bf16_f32) (constant S2000x128 .f32 0x00000000#32))
      (broadcastTo S2000x128 (shapeCast S1x128 b shapeCasts_S128_S1x128) broadcasts_S1x128_S2000x128) (ix2 p q)
      = dense h W b (ix2 p q) := by
  rw [addf_apply, DenseVec.matmul_zero_ix2 plain_dot, VecRows.rows_apply]
  rfl

/-- The stored block at entry (p, q): the network at the sum of the two row blocks. -/
theorem pay_apply (x0 x1 : Vec Ideal S2000x128 .f32) (x2 : Vec Ideal S128x128 .f32) (x3 : Vec Ideal S128 .f32)
    (x4 : Vec Ideal S128x128 .f32) (x5 : Vec Ideal S128 .f32) (y : S2000x128.Idx) :
    k0_pay1 (F := Ideal) x0 x1 x2 x3 x4 x5 y = mlp (fun i => x0 i + x1 i) x2 x3 x4 x5 y := by
  obtain ⟨p, q, rfl⟩ : ∃ (p : Fin 2000) (q : Fin 128), y = ix2 p q := ⟨y 0, y 1, eq_ix2 y⟩
  refine (layer_apply _ x4 x5 p q).trans ?_
  unfold mlp
  refine dense_congr x4 x5 (fun k => ?_) rfl
  show max (_ : EReal) (Ideal.ofBits .f32 0x00000000#32) = max (_ : EReal) (Ideal.ofBits .f32 0x00000000#32)
  refine congrArg (max · (Ideal.ofBits .f32 0x00000000#32)) ((layer_apply _ x2 x3 p k).trans ?_)
  rw [shapeCast_self]
  rfl

end Cert.KernelIdeal.Payload

end
-- ==== Proof.KernelBlocks.lean ====
/-
  From the blocks to the array.

  The grid has 25 points. Point t works on rows 2000·t … 2000·t + 1999: it is handed those rows of the features and
  of the neighbour sums, and the whole weight matrices and biases, and writes back those rows of the result. Since a
  row of the network's result depends only on the same row of its input, what point t writes back is rows
  2000·t … 2000·t + 1999 of the network applied to the WHOLE array of sums. The 25 blocks of rows tile the 50000
  rows (row r lies in block r / 2000), so after the run the result array is the network of the whole array.
  The second operand (for edges whose indices are in range, the sum of each node's neighbours' rows) is computed by
  the host before the launch: a gather of feature rows, scattered with addition into an array of zeros. It is named
  here as one function of the features and the edge list and never opened.
-/
import proofs.«150337_j4363686772848_1_alg».proof.Proof.Gen.KernelIdeal.Value
import proofs.«150337_j4363686772848_1_alg».proof.Proof.KernelPayload
import proofs.«150337_j4363686772848_1_alg».proof.Proof.Mlp
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Mlp
open Idealize.ShloMosaic.Pipeline (Dat)

variable (m : (ℓ : Loc nD τ sig) → Buf (Elt Ideal) ℓ) (ρ : Dev nD → PrngReg)

/-! ## The neighbour sums -/

/-- The array the host hands the kernel as its second operand, as a function of the features and the edge list: the
    first row of the edge list, with 50000 added where an entry is negative, indexes a gather of feature rows, and
    those rows are scattered with addition into an array of zeros at the indices in the second row of the edge list.
    Nothing is claimed here about what these operations do with an index outside the range; the proof uses only that
    the reference forms the same term. -/
def agg (x0 : (⟨S50000x128, .f32⟩ : BufTy).Contents (Elt Ideal)) (x1 : (⟨S2x640000, .i32⟩ : BufTy).Contents (Elt Ideal)) :
    (⟨S50000x128, .f32⟩ : BufTy).Contents (Elt Ideal) :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0
      (shapeCast _ (extractStridedSlice S1x640000 ![1, 0] x1 slices_S2x640000_S1x640000_1_0) shapeCasts_S1x640000_S640000))
    (Host.gather gather_S50000x128_S640000x1_S640000x128_1_0_n_n_0_1_1128 x0
      (broadcastInDim S640000x1 ![0] bcast_S640000_S640000x1_0
        (select
          (cmpi .slt (shapeCast _ (extractStridedSlice S1x640000 ![0, 0] x1 slices_S2x640000_S1x640000_0_0) shapeCasts_S1x640000_S640000)
            (broadcastInDim S640000 ![] bcast_S_S640000 (constantI S_ 32 0#32)))
          (addi (shapeCast _ (extractStridedSlice S1x640000 ![0, 0] x1 slices_S2x640000_S1x640000_0_0) shapeCasts_S1x640000_S640000)
            (broadcastInDim S640000 ![] bcast_S_S640000 (constantI S_ 32 50000#32)))
          (shapeCast _ (extractStridedSlice S1x640000 ![0, 0] x1 slices_S2x640000_S1x640000_0_0) shapeCasts_S1x640000_S640000))))

/-- When the region is entered the second operand's array holds that function of the argument arrays. -/
theorem V_agg (c : Dev nD) :
    (V m c main_v13 : S50000x128.Idx → EReal)
      = agg (m ((c : Thread nD τ).loc main_arg0)) (m ((c : Thread nD τ).loc main_arg1)) := by
  dsimp only [Gen.V, Gen.hostOps0]
  after_results
  rfl

/-! ## The result array as one function of the arrays the region finds -/

/-- The network at the features plus the neighbour sums, over the whole array. -/
abbrev G (a0 a1 : S50000x128.Idx → EReal) (a2 : S128x128.Idx → EReal) (a3 : S128.Idx → EReal)
    (a4 : S128x128.Idx → EReal) (a5 : S128.Idx → EReal) : S50000x128.Idx → EReal :=
  mlp (fun i => a0 i + a1 i) a2 a3 a4 a5

theorem zeros2 : (![0, 0] : Fin 2 → Nat) = fun _ => 0 := funext fun a => by fin_cases a <;> rfl
theorem zeros1 : (![0] : Fin 1 → Nat) = fun _ => 0 := funext fun a => by fin_cases a <;> rfl

/-- The index maps, decided over the 25 points: the two row-blocked inputs and the output are at block (t, 0), the
    weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What point t writes back is block t of the network of the whole arrays. -/
theorem flushed_eq (c : Dev nD) (t : Fin cfg0.N) :
    (dats m 0 c).flushed 6 t = ((cfg0.win 6).blk t).view.read (Elt Ideal)
      (G (V m c main_arg0) (V m c main_v13) (V m c main_arg2) (V m c main_arg3) (V m c main_arg4) (V m c main_arg5)) := by
  rw [Value.flushed6]
  unfold out0_6
  rw [View.canon_unit_zero zeros2]
  simp only [View.ld_unit_zero (S := S2000x128) zeros2, View.ld_unit_zero (S := S128x128) zeros2,
    View.ld_unit_zero (S := S128) zeros1]
  obtain ⟨e00, e01, e10, e11, e20, e21, e30, e40, e41, e50, e60, e61⟩ := idx_facts t
  funext y
  show k0_pay1 (F := Ideal) (iblk m c 0 t) (iblk m c 1 t) (iblk m c 2 t) (iblk m c 3 t) (iblk m c 4 t) (iblk m c 5 t) y
    = G (V m c main_arg0) (V m c main_v13) (V m c main_arg2) (V m c main_arg3) (V m c main_arg4) (V m c main_arg5)
        (((cfg0.win 6).blk t).view.emb y)
  refine (Payload.pay_apply (iblk m c 0 t) (iblk m c 1 t) (iblk m c 2 t) (iblk m c 3 t) (iblk m c 4 t) (iblk m c 5 t) y).trans ?_
  refine mlp_eq_of (fun k => ?_) ?_ (funext fun j => ?_) (funext fun j => ?_) (funext fun j => ?_) (funext fun j => ?_)
  · -- the rows of the two blocked inputs: row (y 0) of block t is row 2000·t + (y 0) of the array
    show (_ : EReal) + (_ : EReal) = (_ : EReal) + (_ : EReal)
    refine congrArg₂ (fun a b : EReal => a + b) ?_ ?_
    · show V m c main_arg0 (((cfg0.win 0).blk t).view.emb (ix2 (y 0) k))
        = V m c main_arg0 (ix2 ((((cfg0.win 6).blk t).view.emb y) 0) k)
      refine congrArg _ (funext fun a => Fin.ext ?_)
      match a with
      | ⟨0, _⟩ => show win0_0.index t (0 : Fin 2) * 2000 + 1 * (y 0).val = win0_6.index t (0 : Fin 2) * 2000 + 1 * (y 0).val; omega
      | ⟨1, _⟩ => show win0_0.index t (1 : Fin 2) * 128 + 1 * k.val = k.val; omega
    · show V m c main_v13 (((cfg0.win 1).blk t).view.emb (ix2 (y 0) k))
        = V m c main_v13 (ix2 ((((cfg0.win 6).blk t).view.emb y) 0) k)
      refine congrArg _ (funext fun a => Fin.ext ?_)
      match a with
      | ⟨0, _⟩ => show win0_1.index t (0 : Fin 2) * 2000 + 1 * (y 0).val = win0_6.index t (0 : Fin 2) * 2000 + 1 * (y 0).val; omega
      | ⟨1, _⟩ => show win0_1.index t (1 : Fin 2) * 128 + 1 * k.val = k.val; omega
  · -- the column is kept
    apply Fin.ext
    show (y 1).val = win0_6.index t (1 : Fin 2) * 128 + 1 * (y 1).val
    omega
  · show V m c main_arg2 (((cfg0.win 2).blk t).view.emb j) = V m c main_arg2 j
    refine congrArg _ (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  · show V m c main_arg3 (((cfg0.win 3).blk t).view.emb j) = V m c main_arg3 j
    refine congrArg _ (funext fun a => Fin.ext ?_)
    match a with
    | ⟨0, _⟩ => show win0_3.index t (0 : Fin 1) * 128 + 1 * (j 0).val = (j 0).val; omega
  · show V m c main_arg4 (((cfg0.win 4).blk t).view.emb j) = V m c main_arg4 j
    refine congrArg _ (funext fun a => Fin.ext ?_)
    match a with
    | ⟨0, _⟩ => show win0_4.index t (0 : Fin 2) * 128 + 1 * (j 0).val = (j 0).val; omega
    | ⟨1, _⟩ => show win0_4.index t (1 : Fin 2) * 128 + 1 * (j 1).val = (j 1).val; omega
  · show V m c main_arg5 (((cfg0.win 5).blk t).view.emb j) = V m c main_arg5 j
    refine congrArg _ (funext fun a => Fin.ext ?_)
    match a with
    | ⟨0, _⟩ => show win0_5.index t (0 : Fin 1) * 128 + 1 * (j 0).val = (j 0).val; omega

/-- An index of the result array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v14).slice (win0_6.rect t)).set ↔ _
  rw [View.set_slice_whole, Rect.mem_set_unit]
  exact Iff.rfl

/-- Every index of the result array is in some point's block: row r is in block r / 2000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; omega
  obtain ⟨-, -, -, -, -, -, -, -, -, -, e60, e61⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    have e : win0_6.index ⟨(i 0).val / 2000, ht⟩ (0 : Fin 2) = (i 0).val / 2000 := e60
    omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    omega

/-- The result array after the run: the network at the features plus their neighbour sums, of the argument arrays. -/
theorem final (c : Dev nD) :
    (dats m 0 c).arrAt 6 cfg0.N
      = G (m ((c : Thread nD τ).loc main_arg0)) (agg (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  rw [(dats m 0 c).arrAt_eq_of_cover 6 _ (fun t _ => flushed_eq m c t) cover,
    V_main_arg0 m c, V_agg m c, V_main_arg2 m c, V_main_arg3 m c, V_main_arg4 m c, V_main_arg5 m c]

/-- The kernel's run: every weakly fair execution ends with the result array at that function of the arguments, and
    the arguments unchanged. -/
theorem run : θ_run defs (onTc (τ := τ) (main (F := Ideal))) ⟨m, fun _ => 0, ρ⟩ fun r => ∀ c : Dev nD,
      r.2.mem ((c : Thread nD τ).loc main_v14)
        = G (m ((c : Thread nD τ).loc main_arg0)) (agg (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.ReferenceValue.lean ====
/-
  What the reference computes, entry by entry.

  The reference adds to the features their neighbour sums (a gather of source rows scattered and added into
  destination rows, kept here as one named stage and never opened), and sends the result through the same two-layer
  network on the whole array: a contraction with the first weight matrix, the first bias laid along every row, the
  rectifier, a contraction with the second weight matrix, the second bias. Entry (p, q) of its result is the
  network's entry (p, q) at the array of sums.
-/
import proofs.«150337_j4363686772848_1_alg».proof.Proof.Gen.ReferenceIdeal.Read
import proofs.«150337_j4363686772848_1_alg».proof.Proof.Mlp
import proofs.«150337_j4363686772848_1_alg».proof.Proof.LibDenseVec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.Mlp

/-- The host's contraction takes the left operand's columns against the right operand's rows, and nothing else. -/
theorem plain_dot : DenseVec.Plain dot_S50000x128_S128x128_S50000x128_1_0_0_1_n_n where
  rank := rfl
  size := fun _ => rfl
  lhs := rfl
  rhs := rfl
  row := fun j q => lhs_main_v15_0 j q
  col := fun j q => rhs_main_v15_1 j q

/-- One dense layer as the host spells it — a contraction, and the bias sent under a unit axis and then across it —
    is the dense layer, entry by entry. -/
theorem layer_apply (h : FVec Ideal S50000x128 .f32) (W : FVec Ideal S128x128 .f32) (b : FVec Ideal S128 .f32)
    (p : Fin 50000) (q : Fin 128) :
    addf (Host.dotGeneral dot_S50000x128_S128x128_S50000x128_1_0_0_1_n_n none h W)
      (broadcastInDim S50000x128 ![0, 1] bcast_S1x128_S50000x128_0_1 (broadcastInDim S1x128 ![1] bcast_S128_S1x128_1 b))
      (ix2 p q) = dense h W b (ix2 p q) := by
  rw [addf_apply, DenseVec.dotGeneral_ix2 plain_dot, Keepdims.cols_apply]
  rfl

/-- The reference's last stage at an entry: the network at the features plus their neighbour sums. -/
theorem result_apply (x0 : (⟨S50000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (i : S50000x128.Idx) :
    val_main_v23 (F := Ideal) x0 x1 x2 x3 x4 x5 i
      = mlp (fun j => x0 j + val_main_v13 (F := Ideal) x0 x1 j) x2 x3 x4 x5 i := by
  obtain ⟨p, q, rfl⟩ : ∃ (p : Fin 50000) (q : Fin 128), i = ix2 p q := ⟨i 0, i 1, eq_ix2 i⟩
  unfold val_main_v23 val_main_v22 val_main_v21 val_main_v20
  refine (layer_apply _ x4 x5 p q).trans ?_
  unfold mlp
  refine dense_congr x4 x5 (fun k => ?_) rfl
  show max (_ : EReal) (Ideal.ofBits .f32 0x00000000#32) = max (_ : EReal) (Ideal.ofBits .f32 0x00000000#32)
  refine congrArg (max · (Ideal.ofBits .f32 0x00000000#32)) ?_
  unfold val_main_v18 val_main_v17 val_main_v16 val_main_v15
  exact (layer_apply _ x2 x3 p k).trans rfl

/-- The same, as an equation of arrays. -/
theorem result_eq (x0 : (⟨S50000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v23 (F := Ideal) x0 x1 x2 x3 x4 x5
      = mlp (fun j => x0 j + val_main_v13 (F := Ideal) x0 x1 j) x2 x3 x4 x5 :=
  funext (result_apply x0 x1 x2 x3 x4 x5)

end Cert.ReferenceIdeal.RefValue

end
-- ==== Proof.lean ====
/-
  A graph layer: each node's features plus the sum of its neighbours' features, sent through a two-layer network.

  Both programs first gather feature rows at the indices in the edge list's first row and scatter them, with
  addition, into an array of zeros at the indices in its second row (for edges whose indices are in range: for every
  node, the sum of its neighbours' rows). The two programs spell this step identically, operation for operation, so
  it is one function `agg` of the features x and the edge list on both sides; it is never opened, and nothing is
  claimed about what it does with an index outside the range. Then, with h = x + agg,
    out (r, j) = ∑ k, max (∑ l, h (r, l) · W1 (l, k) + b1 k) 0 · W2 (k, j) + b2 j.
  The kernel computes this 2000 rows at a time, each product into a zero accumulator, the operands narrowed to bf16
  before each product; the reference computes it on the whole array with two contractions. On the extended reals the
  narrowings are the identity, a product into a zero accumulator and a contraction are the same sum over the shared
  axis in the same order, and a row of the result depends only on the same row of h — so the 25 blocks of rows are the
  25 blocks of the whole result, and the two results are equal entry by entry. No algebraic law beyond 0 + s = s is
  used, so the inputs' finiteness is not needed for the values; it is the stated precondition of every claim.

  The idealized kernel is the kernel's own text read on the extended reals: no rewrite was applied, and there is
  nothing to preserve.
-/
import proofs.«150337_j4363686772848_1_alg».proof.Defs
import proofs.«150337_j4363686772848_1_alg».proof.Proof.Gen.Kernel
import proofs.«150337_j4363686772848_1_alg».proof.Proof.Gen.Kernel.Skeleton
import proofs.«150337_j4363686772848_1_alg».proof.Proof.Gen.Kernel.Launch
import proofs.«150337_j4363686772848_1_alg».proof.Proof.Gen.Kernel.Points
import proofs.«150337_j4363686772848_1_alg».proof.Proof.Gen.Kernel.Frame
import proofs.«150337_j4363686772848_1_alg».proof.Proof.Gen.KernelIdeal
import proofs.«150337_j4363686772848_1_alg».proof.Proof.Gen.KernelIdeal.Skeleton
import proofs.«150337_j4363686772848_1_alg».proof.Proof.Gen.KernelIdeal.Launch
import proofs.«150337_j4363686772848_1_alg».proof.Proof.Gen.KernelIdeal.Points
import proofs.«150337_j4363686772848_1_alg».proof.Proof.Gen.KernelIdeal.Frame
import proofs.«150337_j4363686772848_1_alg».proof.Proof.Gen.ReferenceIdeal
import proofs.«150337_j4363686772848_1_alg».proof.Proof.Gen.Pre_finite_inputs
import proofs.«150337_j4363686772848_1_alg».proof.Proof.Gen.KernelIdeal.Value
import proofs.«150337_j4363686772848_1_alg».proof.Proof.Gen.ReferenceIdeal.Run
import proofs.«150337_j4363686772848_1_alg».proof.Proof.Gen.ReferenceIdeal.Read
import proofs.«150337_j4363686772848_1_alg».proof.Proof.KernelBlocks
import proofs.«150337_j4363686772848_1_alg».proof.Proof.ReferenceValue
import Idealize.ShloMosaic.Adequacy
import Idealize.ShloMosaic.Init

noncomputable section

namespace Cert.Proof

open Idealize.ShloMosaic Idealize.ShloMosaic.TcCoe Idealize.SL.Sem

/-- The gathered-and-scattered array is one function of the features and the edge list in both programs: the two
    spellings are the same operations with the same dimension numbers. -/
theorem agg_eq (x0 : (⟨Cert.KernelIdeal.S50000x128, .f32⟩ : BufTy).Contents (Elt Ideal))
    (x1 : (⟨Cert.KernelIdeal.S2x640000, .i32⟩ : BufTy).Contents (Elt Ideal)) :
    Cert.KernelIdeal.Blocks.agg x0 x1 = Cert.ReferenceIdeal.Read.val_main_v13 (F := Ideal) x0 x1 := rfl

/-- The kernel runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From arguments that agree, the kernel's result array and the reference's are the same array: the network at the
    features plus their neighbour sums. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v23_eq, Cert.ReferenceIdeal.RefValue.result_eq, a0, a1, a2, a3, a4, a5, ← agg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
